-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S1x1x2048x2048 : Shape := ⟨4, ![1, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x64 .f32) (main_arg3 : FVec F S1x1x2048x2048 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_v13 main_v16
-- ==== Kernel.lean ====
abbrev S4x16x2048x64 : Shape := ⟨4, ![4, 16, 2048, 64]⟩
abbrev S1x1x2048x2048 : Shape := ⟨4, ![1, 1, 2048, 2048]⟩
abbrev S64x2048x64 : Shape := ⟨3, ![64, 2048, 64]⟩
abbrev S2048x2048 : Shape := ⟨2, ![2048, 2048]⟩
abbrev S64x2048x2048 : Shape := ⟨3, ![64, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S4x16x2048x2048 : Shape := ⟨4, ![4, 16, 2048, 2048]⟩

abbrev nBuf : Space → Nat
  | .hbm => 12
  | .vmem => 11
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S1x1x2048x2048, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S2048x2048, .f32⟩
  | .hbm, ⟨8, _⟩ => ⟨S64x2048x64, .f32⟩
  | .hbm, ⟨9, _⟩ => ⟨S64x2048x2048, .f32⟩
  | .hbm, ⟨10, _⟩ => ⟨S4x16x2048x64, .f32⟩
  | .hbm, ⟨11, _⟩ => ⟨S4x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S2048x2048, .f32⟩
  | .local _ .vmem, ⟨7, _⟩ => ⟨S1x512x64, .f32⟩
  | .local _ .vmem, ⟨8, _⟩ => ⟨S1x512x64, .f32⟩
  | .local _ .vmem, ⟨9, _⟩ => ⟨S1x512x2048, .f32⟩
  | .local _ .vmem, ⟨10, _⟩ => ⟨S1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v8 : Index := Scalar.indexCast v1
  let c0_8 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x16x2048x64_S64x2048x64 : S4x16x2048x64.ShapeCasts S64x2048x64
  shapeCasts_S1x1x2048x2048_S2048x2048 : S1x1x2048x2048.ShapeCasts S2048x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S64x2048x64_S4x16x2048x64 : S64x2048x64.ShapeCasts S4x16x2048x64
  shapeCasts_S64x2048x2048_S4x16x2048x2048 : S64x2048x2048.ShapeCasts S4x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .f32 = 32 ∨ (Rect.block (s := S2048x2048) S2048x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x2048x64.size a
  hwx0_4 : ∀ i : grid0.Coords, EltTy.bits .f32 = 32 ∨ (Rect.block (s := S64x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S64x2048x2048.size a
  hwx0_5 : ∀ i : grid0.Coords, EltTy.bits .f32 = 32 ∨ (Rect.block (s := S64x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S1x1x2048x2048 : Shape := ⟨4, ![1, 1, 2048, 2048]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S1x1x2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x16x2048x2048, .f32⟩
  | .hbm, ⟨9, _⟩ => ⟨S4x16x2048x2048, .f32⟩
  | .hbm, ⟨10, _⟩ => ⟨S4x16x2048x2048, .f32⟩
  | .hbm, ⟨11, _⟩ => ⟨S4x16x2048x2048, .f32⟩
  | .hbm, ⟨12, _⟩ => ⟨S4x16x2048x2048, .f32⟩
  | .hbm, ⟨13, _⟩ => ⟨S_, .f32⟩
  | .hbm, ⟨14, _⟩ => ⟨S4x16x2048, .f32⟩
  | .hbm, ⟨15, _⟩ => ⟨S_, .f32⟩
  | .hbm, ⟨16, _⟩ => ⟨S4x16x2048, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelPieces.lean ====
/-
  What the kernel body leaves in its two output blocks at a grid point, as functions of what it loaded.

  The body loads its query block, the head's key and value blocks and 512 rows of the resident mask (those starting at
  row 512 · the point's second coordinate), and makes one covering store into each output block: the attention
  weights of the tile into one, their product with the values into the other. Each block therefore ends holding
  exactly the stored value.
-/
import proofs.«125289_j34978213658631_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Found

open Cert.KernelIdeal Cert.KernelIdeal.Gen Idealize.ShloMosaic.Tactic

variable {F : FTy → Type} [FloatOps F]

theorem hz3 : (![0, 0, 0] : Fin 3 → Nat) = fun _ => 0 := funext fun a => by fin_cases a <;> rfl

/-- The 512 rows of the resident mask the body reads at a point: those from the point's row offset on. -/
abbrev maskTile (i : grid0.Coords) (x3 : Vec F S2048x2048 .f32) : Vec F S512x2048 .f32 :=
  View.ld x3 (Rect.unit (s := S2048x2048) (k0_off1 i) S512x2048.size (Facts₀.k0_off1_inb i))

/-- The weights block ends holding the stored tile of weights. -/
theorem weights_piece (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S2048x2048 .f32) (harg5 : arg5.IsWhole) (arg6 : Memref sig .tc .vmem S1x512x64 .f32) (harg6 : arg6.IsWhole) (arg7 : Memref sig .tc .vmem S1x512x2048 .f32) (harg7 : arg7.IsWhole)
    (x0 : Vec F S1x512x64 .f32) (x1 : Vec F S1x2048x64 .f32) (x2 : Vec F S1x2048x64 .f32) (x3 : Vec F S2048x2048 .f32) :
    out0_A_5 c i arg2 harg2 arg3 harg3 arg4 harg4 arg5 harg5 arg6 harg6 arg7 harg7 x0 x1 x2 x3 = k0_pay2 x0 x1 (maskTile i x3) := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  rw [View.canon_unit_zero hz3]
  simp only [View.readAt_eq_ld, harg2.read_unread, harg3.read_unread, harg5.read_unread,
    View.ld_unit_zero (S := S1x512x64) hz3, View.ld_unit_zero (S := S1x2048x64) hz3]

/-- The values block ends holding the stored product of the weights with the values. -/
theorem values_piece (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S2048x2048 .f32) (harg5 : arg5.IsWhole) (arg6 : Memref sig .tc .vmem S1x512x64 .f32) (harg6 : arg6.IsWhole) (arg7 : Memref sig .tc .vmem S1x512x2048 .f32) (harg7 : arg7.IsWhole)
    (x0 : Vec F S1x512x64 .f32) (x1 : Vec F S1x2048x64 .f32) (x2 : Vec F S1x2048x64 .f32) (x3 : Vec F S2048x2048 .f32) :
    out0_A_4 c i arg2 harg2 arg3 harg3 arg4 harg4 arg5 harg5 arg6 harg6 arg7 harg7 x0 x1 x2 x3 = k0_pay3 x0 x1 x2 (maskTile i x3) := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  rw [View.canon_unit_zero hz3]
  simp only [View.readAt_eq_ld, harg2.read_unread, harg3.read_unread, harg4.read_unread, harg5.read_unread,
    View.ld_unit_zero (S := S1x512x64) hz3, View.ld_unit_zero (S := S1x2048x64) hz3]

end Cert.KernelIdeal.Found

end
-- ==== Proof.Spec.lean ====
/-
  Scaled dot-product attention for ONE head, row by row, over the extended reals.

  For a query row `qr` (64 features), the head's keys `K` and values `V` (2048 positions by 64 features) and the
  row `mr` of the additive mask:
    score  c = (∑ d, qr d · K c d) · ⅛ + mr c
    weight c = exp (score c − max score) / ∑ c', exp (score c' − max score)
    out    d = ∑ c, weight c · V c d
  The maximum is the fold of `max` from −∞ over the 2048 positions, the sums are finite sums over positions or
  features: no order of evaluation is left in them. Both programs compute exactly these expressions; they differ in
  how a head is addressed — (batch, head) on one side, the flattened pair 16·batch + head on the other — in the tiling
  of the query rows, and in how the scale ⅛ is spelt: the literal 0.125 on one side, 1 / √64 on the other.
  This module also holds the float literals the two programs spell, as the extended reals they denote.
-/
import Idealize.ShloMosaic.PureOps.Ideal
import Idealize.ShloMosaic.PureOps.Ideal.Laws
import Idealize.ShloMosaic.Lib.ValueIdx

noncomputable section

namespace Cert.Attention

open Idealize.ShloMosaic

/-! ## The literals -/

/-- The word `0xFF800000` is −∞. -/
theorem ofBits_negInf : Ideal.ofBits .f32 0xFF800000#32 = (⊥ : EReal) := by
  simp [Ideal.ofBits, Ideal.ieee]

/-- The word `0x42800000` is 64. -/
theorem ofBits_64 : Ideal.ofBits .f32 0x42800000#32 = ((64 : ℝ) : EReal) := by
  simp [Ideal.ofBits, Ideal.ieee, -EReal.coe_mul]; norm_num

/-- The word `0x3F800000` is 1. -/
theorem ofBits_one : Ideal.ofBits .f32 0x3F800000#32 = ((1 : ℝ) : EReal) := by
  simp [Ideal.ofBits, Ideal.ieee, -EReal.coe_mul]; norm_num

/-- The word `0x3E000000` is ⅛. -/
theorem ofBits_eighth : Ideal.ofBits .f32 0x3E000000#32 = ((1 / 8 : ℝ) : EReal) := by
  simp [Ideal.ofBits, Ideal.ieee, -EReal.coe_mul]; norm_num

/-- √64 = 8, so 1 / √64 is the literal ⅛: the two spellings of the scale denote one number. -/
theorem one_div_sqrt_64 :
    Ideal.div (Ideal.ofBits .f32 0x3F800000#32) (Ideal.sqrt (Ideal.ofBits .f32 0x42800000#32))
      = Ideal.ofBits .f32 0x3E000000#32 := by
  have h8 : Real.sqrt 64 = 8 := by
    rw [show (64 : ℝ) = 8 ^ 2 by norm_num]; exact Real.sqrt_sq (by norm_num)
  rw [ofBits_64, ofBits_one, ofBits_eighth, Ideal.sqrt_coe, if_neg (by norm_num), h8,
    Ideal.div_coe (by norm_num : (8 : ℝ) ≠ 0), ← EReal.coe_mul, one_mul]

/-! ## One head, one query row -/

/-- The scores of one query row against every key position, scaled by ⅛ and shifted by the mask's row. -/
def scoreRow (qr : Fin 64 → EReal) (K : Fin 2048 → Fin 64 → EReal) (mr : Fin 2048 → EReal) (c : Fin 2048) : EReal :=
  (∑ d : Fin 64, qr d * K c d) * Ideal.ofBits .f32 0x3E000000#32 + mr c

/-- Score rows of pointwise equal data are equal. -/
theorem scoreRow_congr {qr qr' : Fin 64 → EReal} {K K' : Fin 2048 → Fin 64 → EReal} {mr mr' : Fin 2048 → EReal}
    (h1 : ∀ d, qr d = qr' d) (h2 : ∀ c d, K c d = K' c d) (h3 : ∀ c, mr c = mr' c) : scoreRow qr K mr = scoreRow qr' K' mr' := by
  rw [show qr = qr' from funext h1, show K = K' from funext fun c => funext (h2 c), show mr = mr' from funext h3]

/-- The largest score of a row: the fold of `max` from −∞ over the positions. -/
def rowMax (s : Fin 2048 → EReal) : EReal :=
  (Finset.univ : Finset (Fin 2048)).fold max (Ideal.ofBits .f32 0xFF800000#32) s

/-- A row's scores shifted by their maximum, exponentiated. -/
def expRow (s : Fin 2048 → EReal) (c : Fin 2048) : EReal := Ideal.exp (s c - rowMax s)

/-- The attention weights of a row: the exponentials over their sum. -/
def weightRow (s : Fin 2048 → EReal) (c : Fin 2048) : EReal := Ideal.div (expRow s c) (∑ c' : Fin 2048, expRow s c')

/-- The attended values of a row: the weights' combination of the value rows. -/
def attendRow (s : Fin 2048 → EReal) (V : Fin 2048 → Fin 64 → EReal) (d : Fin 64) : EReal :=
  ∑ c : Fin 2048, weightRow s c * V c d

/-! ## All heads: the two results as whole arrays

The arguments are `q`, `k`, `v` of shape [4, 16, 2048, 64] (batch, head, position, feature) and the additive mask of
shape [1, 1, 2048, 2048], shared by every batch entry and head. -/

open Idealize.ShloMosaic.ValueIdx

/-- The scores of query row `r` of head (`b`, `h`) against every key position of that head. -/
def headScores (q k : (⟨4, ![4, 16, 2048, 64]⟩ : Shape).Idx → EReal) (msk : (⟨4, ![1, 1, 2048, 2048]⟩ : Shape).Idx → EReal)
    (b : Fin 4) (h : Fin 16) (r : Fin 2048) : Fin 2048 → EReal :=
  scoreRow (fun d => q (ix4 b h r d)) (fun c d => k (ix4 b h c d)) (fun c => msk (ix4 (0 : Fin 1) (0 : Fin 1) r c))

/-- The attention weights, as one array of shape [4, 16, 2048, 2048]. -/
def weights (q k : (⟨4, ![4, 16, 2048, 64]⟩ : Shape).Idx → EReal) (msk : (⟨4, ![1, 1, 2048, 2048]⟩ : Shape).Idx → EReal) :
    (⟨4, ![4, 16, 2048, 2048]⟩ : Shape).Idx → EReal :=
  fun i => weightRow (headScores q k msk (i 0) (i 1) (i 2)) (i 3)

/-- The attended values, as one array of shape [4, 16, 2048, 64]. -/
def attended (q k v : (⟨4, ![4, 16, 2048, 64]⟩ : Shape).Idx → EReal) (msk : (⟨4, ![1, 1, 2048, 2048]⟩ : Shape).Idx → EReal) :
    (⟨4, ![4, 16, 2048, 64]⟩ : Shape).Idx → EReal :=
  fun i => attendRow (headScores q k msk (i 0) (i 1) (i 2)) (fun c d => v (ix4 (i 0) (i 1) c d)) (i 3)

/-! ## The same with batch and head flattened into one axis of 64

`q3`, `k3`, `v3` of shape [64, 2048, 64] and the mask as a [2048, 2048] matrix. -/

/-- The scores of query row `r` of flattened head `g`. -/
def flatScores (q3 k3 : (⟨3, ![64, 2048, 64]⟩ : Shape).Idx → EReal) (m2 : (⟨2, ![2048, 2048]⟩ : Shape).Idx → EReal)
    (g : Fin 64) (r : Fin 2048) : Fin 2048 → EReal :=
  scoreRow (fun d => q3 (ix3 g r d)) (fun c d => k3 (ix3 g c d)) (fun c => m2 (ix2 r c))

/-- The attention weights as one array of shape [64, 2048, 2048]. -/
def flatWeights (q3 k3 : (⟨3, ![64, 2048, 64]⟩ : Shape).Idx → EReal) (m2 : (⟨2, ![2048, 2048]⟩ : Shape).Idx → EReal) :
    (⟨3, ![64, 2048, 2048]⟩ : Shape).Idx → EReal :=
  fun i => weightRow (flatScores q3 k3 m2 (i 0) (i 1)) (i 2)

/-- The attended values as one array of shape [64, 2048, 64]. -/
def flatAttended (q3 k3 v3 : (⟨3, ![64, 2048, 64]⟩ : Shape).Idx → EReal) (m2 : (⟨2, ![2048, 2048]⟩ : Shape).Idx → EReal) :
    (⟨3, ![64, 2048, 64]⟩ : Shape).Idx → EReal :=
  fun i => attendRow (flatScores q3 k3 m2 (i 0) (i 1)) (fun c d => v3 (ix3 (i 0) c d)) (i 2)

/-- When the flattened arrays hold head (`b`, `h`) at `g`, that head's scores are the same rows. -/
theorem flatScores_eq (q k : (⟨4, ![4, 16, 2048, 64]⟩ : Shape).Idx → EReal) (msk : (⟨4, ![1, 1, 2048, 2048]⟩ : Shape).Idx → EReal)
    (q3 k3 : (⟨3, ![64, 2048, 64]⟩ : Shape).Idx → EReal) (m2 : (⟨2, ![2048, 2048]⟩ : Shape).Idx → EReal)
    (b : Fin 4) (h : Fin 16) (g : Fin 64)
    (hq : ∀ (s : Fin 2048) (d : Fin 64), q3 (ix3 g s d) = q (ix4 b h s d))
    (hk : ∀ (s : Fin 2048) (d : Fin 64), k3 (ix3 g s d) = k (ix4 b h s d))
    (hm : ∀ r c : Fin 2048, m2 (ix2 r c) = msk (ix4 (0 : Fin 1) (0 : Fin 1) r c)) (r : Fin 2048) :
    flatScores q3 k3 m2 g r = headScores q k msk b h r :=
  scoreRow_congr (hq r) hk (hm r)

/-- −∞ is neutral for `max`: taking the maximum with −∞ once more changes nothing. -/
theorem max_negInf_left (x : EReal) : max (Ideal.ofBits .f32 0xFF800000#32) x = x := by
  rw [ofBits_negInf]; exact max_eq_right bot_le

end Cert.Attention

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.KernelBody.lean ====
/-
  What the kernel body computes on one tile, read index by index over the extended reals.

  At a grid point the body holds 512 query rows (a [1, 512, 64] block), the head's 2048 key rows and 2048 value rows
  ([1, 2048, 64] blocks) and the 512 matching rows of the mask (a [512, 2048] tile). Row `r` of the tile gets exactly the
  specification's row computation: scores against every key, their maximum, the exponentials of the shifted scores,
  their sum, the quotient, and the weights' combination of the value rows. The two matrix products into a zero
  accumulator are plain sums over the contracted axis; a row reduction kept as a column and repeated along the row
  reads the reduction at the row.
-/
import proofs.«125289_j34978213658631_2_alg».proof.Proof.Gen.KernelIdeal.Skeleton
import proofs.«125289_j34978213658631_2_alg».proof.Proof.Spec
import proofs.«125289_j34978213658631_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.ColumnLayout
open Cert.Attention

/-! ## The two matrix products as sums -/

theorem qk_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl

/-- Queries times keys, both contracted on their feature axis: entry (r, c) is the sum over the 64 features. -/
theorem qk_apply (a : FVec Ideal S512x64 .f32) (b : FVec Ideal S2048x64 .f32) (r : Fin 512) (c : Fin 2048) :
    matmul dot_S512x64_S2048x64_S512x2048_1_1_0_0_n_n (some .fp32) a b (constant S512x2048 .f32 0x00000000#32) (ix2 r c)
      = ∑ d : Fin 64, a (ix2 r d) * b (ix2 c d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r c) ((contrEquiv1 dot_S512x64_S2048x64_S512x2048_1_1_0_0_n_n 64 rfl rfl).symm d) = ix2 r d := funext fun x => Fin.ext (by
    match x with
    | ⟨0, _⟩ => exact qk_lhs0 _ _
    | ⟨1, _⟩ => exact (dot_S512x64_S2048x64_S512x2048_1_1_0_0_n_n.lhsIdx_val_of_single rfl _ _).trans hd)
  have er : dot_S512x64_S2048x64_S512x2048_1_1_0_0_n_n.rhsIdx (ix2 r c) ((contrEquiv1 dot_S512x64_S2048x64_S512x2048_1_1_0_0_n_n 64 rfl rfl).symm d) = ix2 c d := funext fun x => Fin.ext (by
    match x with
    | ⟨0, _⟩ => exact qk_rhs0 _ _
    | ⟨1, _⟩ => exact (dot_S512x64_S2048x64_S512x2048_1_1_0_0_n_n.rhsIdx_val_of_single rfl _ _).trans hd)
  rw [el, er]

theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights times values: entry (r, d) is the sum over the 2048 positions. -/
theorem pv_apply (a : FVec Ideal S512x2048 .f32) (b : FVec Ideal S2048x64 .f32) (r : Fin 512) (d : Fin 64) :
    matmul dot_S512x2048_S2048x64_S512x64_1_0_0_1_n_n (some .fp32) a b (constant S512x64 .f32 0x00000000#32) (ix2 r d)
      = ∑ c : Fin 2048, a (ix2 r c) * b (ix2 c d) := by
  simp only [matmul]
  rw [Ideal.matmul_constant_zero_apply, ← Equiv.sum_comp (contrEquiv1 dot_S512x2048_S2048x64_S512x64_1_0_0_1_n_n 2048 rfl rfl).symm]
  refine Finset.sum_congr rfl fun c _ => ?_
  have hc := contrEquiv1_symm_val dot_S512x2048_S2048x64_S512x64_1_0_0_1_n_n 2048 rfl rfl c
  have el : dot_S512x2048_S2048x64_S512x64_1_0_0_1_n_n.lhsIdx (ix2 r d) ((contrEquiv1 dot_S512x2048_S2048x64_S512x64_1_0_0_1_n_n 2048 rfl rfl).symm c) = ix2 r c := funext fun x => Fin.ext (by
    match x with
    | ⟨0, _⟩ => exact pv_lhs0 _ _
    | ⟨1, _⟩ => exact (dot_S512x2048_S2048x64_S512x64_1_0_0_1_n_n.lhsIdx_val_of_single rfl _ _).trans hc)
  have er : dot_S512x2048_S2048x64_S512x64_1_0_0_1_n_n.rhsIdx (ix2 r d) ((contrEquiv1 dot_S512x2048_S2048x64_S512x64_1_0_0_1_n_n 2048 rfl rfl).symm c) = ix2 c d := funext fun x => Fin.ext (by
    match x with
    | ⟨0, _⟩ => exact (dot_S512x2048_S2048x64_S512x64_1_0_0_1_n_n.rhsIdx_val_of_single rfl _ _).trans hc
    | ⟨1, _⟩ => exact pv_rhs1 _ _)
  rw [el, er]

/-! ## A reduction along a tile's rows -/

/-- A row index of the tile with the position put back on the reduced axis. -/
theorem lift_tile (h : S512x2048.Reduces [1] S512) (r : Fin 512) (c : Fin (S512x2048.size 1)) :
    h.lift (ix1 r) c = ix2 r (⟨c.val, c.isLt⟩ : Fin 2048) := by
  funext a; apply Fin.ext
  fin_cases a <;> rfl

/-- The maximum along a tile's row, folded from −∞. -/
theorem rowMax_reduce (s : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r) = rowMax (fun c => s (ix2 r c)) := by
  refine (Ideal.multiReduction_maximumf_single s 0xFF800000#32 h hφ hacc (ix1 r)).trans ?_
  have hf : (s ∘ h.lift (ix1 r)) = fun c : Fin 2048 => s (ix2 r c) := funext fun c => congrArg s (lift_tile h r c)
  exact congrArg (fun f => Finset.fold max (Ideal.ofBits .f32 0xFF800000#32) f (Finset.univ : Finset (Fin 2048))) hf

/-- The sum along a tile's row. -/
theorem rowSum_reduce (s : FVec Ideal S512x2048 .f32) (h : S512x2048.Reduces [1] S512) (hφ : FKind.Formats .f32)
    (hacc : (0x00000000#32 : BitVec 32) = FKind.add.neutral .f32 hφ) (r : Fin 512) :
    multiReduction .add [1] S512 s 0x00000000#32 h hφ hacc (ix1 r) = ∑ c : Fin 2048, s (ix2 r c) := by
  refine (Ideal.multiReduction_add_single s 0x00000000#32 h hφ hacc (ix1 r)).trans ?_
  show ∑ c : Fin 2048, s (h.lift (ix1 r) c) = _
  exact Finset.sum_congr rfl fun c _ => congrArg s (lift_tile h r c)

/-! ## The stages of the body on a tile -/

/-- The tile's scores: queries against keys, scaled by the literal ⅛, plus the mask's rows. -/
def tileScores (v2 : Vec Ideal S1x512x64 .f32) (v4 : Vec Ideal S1x2048x64 .f32) (v9 : Vec Ideal S512x2048 .f32) : FVec Ideal S512x2048 .f32 :=
  addf (mulf (matmul dot_S512x64_S2048x64_S512x2048_1_1_0_0_n_n (some .fp32) (shapeCast S512x64 v2 shapeCasts_S1x512x64_S512x64 : FVec Ideal S512x64 .f32)
      (shapeCast S2048x64 v4 shapeCasts_S1x2048x64_S2048x64 : FVec Ideal S2048x64 .f32) (constant S512x2048 .f32 0x00000000#32))
    (broadcast S512x2048 (Scalar.ofBits .f32 0x3E000000#32))) (shapeCast S512x2048 v9 shapeCasts_S512x2048_S512x2048 : FVec Ideal S512x2048 .f32)

/-- Each row's maximum, repeated along the row. -/
def tileMax (s : FVec Ideal S512x2048 .f32) : FVec Ideal S512x2048 .f32 :=
  broadcastTo S512x2048 (shapeCast S512x1 (multiReduction .maximumf [1] S512 s 0xFF800000#32 reduces_S512x2048_S512 (.inl rfl) rfl)
    shapeCasts_S512_S512x1) broadcasts_S512x1_S512x2048

/-- The exponentials of the scores shifted by their row's maximum. -/
def tileExp (s : FVec Ideal S512x2048 .f32) : FVec Ideal S512x2048 .f32 := exp (subf s (tileMax s))

/-- Each row's sum of exponentials, repeated along the row. -/
def tileSum (s : FVec Ideal S512x2048 .f32) : FVec Ideal S512x2048 .f32 :=
  broadcastTo S512x2048 (shapeCast S512x1 (multiReduction .add [1] S512 (tileExp s) 0x00000000#32 reduces_S512x2048_S512 (.inl rfl) rfl)
    shapeCasts_S512_S512x1) broadcasts_S512x1_S512x2048

/-- The tile's attention weights. -/
def tileWeights (s : FVec Ideal S512x2048 .f32) : FVec Ideal S512x2048 .f32 := divf (tileExp s) (tileSum s)

set_option maxRecDepth 65536 in
/-- The body's first payload is these stages composed. -/
theorem pay1_eq (v2 : Vec Ideal S1x512x64 .f32) (v4 : Vec Ideal S1x2048x64 .f32) (v9 : Vec Ideal S512x2048 .f32) :
    k0_pay1 v2 v4 v9 = tileWeights (tileScores v2 v4 v9) := rfl

/-- Row `r` of the tile, as the specification's score row. -/
abbrev rowScores (v2 : Vec Ideal S1x512x64 .f32) (v4 : Vec Ideal S1x2048x64 .f32) (v9 : Vec Ideal S512x2048 .f32) (r : Fin 512) :
    Fin 2048 → EReal :=
  scoreRow (fun d => v2 (ix3 (0 : Fin 1) r d)) (fun c d => v4 (ix3 (0 : Fin 1) c d)) (fun c => v9 (ix2 r c))

theorem tileScores_apply (v2 : Vec Ideal S1x512x64 .f32) (v4 : Vec Ideal S1x2048x64 .f32) (v9 : Vec Ideal S512x2048 .f32)
    (r : Fin 512) (c : Fin 2048) : tileScores v2 v4 v9 (ix2 r c) = rowScores v2 v4 v9 r c := by
  show matmul dot_S512x64_S2048x64_S512x2048_1_1_0_0_n_n (some .fp32) (shapeCast S512x64 v2 shapeCasts_S1x512x64_S512x64 : FVec Ideal S512x64 .f32)
      (shapeCast S2048x64 v4 shapeCasts_S1x2048x64_S2048x64 : FVec Ideal S2048x64 .f32) (constant S512x2048 .f32 0x00000000#32) (ix2 r c)
        * Ideal.ofBits .f32 0x3E000000#32 + (shapeCast S512x2048 v9 shapeCasts_S512x2048_S512x2048 : FVec Ideal S512x2048 .f32) (ix2 r c) = _
  rw [shapeCast_self, qk_apply]
  simp only [shapeCast_1ab_ab_apply]
  rfl

theorem tileMax_apply (s : FVec Ideal S512x2048 .f32) (r : Fin 512) (c : Fin 2048) :
    tileMax s (ix2 r c) = rowMax (fun c => s (ix2 r c)) :=
  (column_broadcast_apply _ _ _ r c).trans (rowMax_reduce s _ _ _ r)

theorem tileExp_apply (s : FVec Ideal S512x2048 .f32) (r : Fin 512) (c : Fin 2048) :
    tileExp s (ix2 r c) = expRow (fun c => s (ix2 r c)) c := by
  show Ideal.exp (s (ix2 r c) - tileMax s (ix2 r c)) = _
  rw [tileMax_apply]
  rfl

theorem tileSum_apply (s : FVec Ideal S512x2048 .f32) (r : Fin 512) (c : Fin 2048) :
    tileSum s (ix2 r c) = ∑ c' : Fin 2048, expRow (fun c => s (ix2 r c)) c' :=
  (column_broadcast_apply _ _ _ r c).trans
    ((rowSum_reduce (tileExp s) _ _ _ r).trans (Finset.sum_congr rfl fun c' _ => tileExp_apply s r c'))

theorem tileWeights_apply (s : FVec Ideal S512x2048 .f32) (r : Fin 512) (c : Fin 2048) :
    tileWeights s (ix2 r c) = weightRow (fun c => s (ix2 r c)) c := by
  show Ideal.div (tileExp s (ix2 r c)) (tileSum s (ix2 r c)) = _
  rw [tileExp_apply, tileSum_apply]
  rfl

/-! ## The two stored payloads, read at an index -/

/-- The stored weights block: row `r`, position `c` of the tile's weights. -/
theorem weights_payload (v2 : Vec Ideal S1x512x64 .f32) (v4 : Vec Ideal S1x2048x64 .f32) (v9 : Vec Ideal S512x2048 .f32)
    (u : Fin 1) (r : Fin 512) (c : Fin 2048) :
    k0_pay2 v2 v4 v9 (ix3 u r c) = weightRow (rowScores v2 v4 v9 r) c := by
  show shapeCast S1x512x2048 (k0_pay1 v2 v4 v9) shapeCasts_S512x2048_S1x512x2048 (ix3 u r c) = _
  rw [shapeCast_ab_1ab_apply, pay1_eq, tileWeights_apply]
  exact congrArg (fun s => weightRow s c) (funext fun c' => tileScores_apply v2 v4 v9 r c')

/-- The stored values block: row `r`, feature `d` is the weights' combination of the head's value rows. -/
theorem values_payload (v2 : Vec Ideal S1x512x64 .f32) (v4 v6 : Vec Ideal S1x2048x64 .f32) (v9 : Vec Ideal S512x2048 .f32)
    (u : Fin 1) (r : Fin 512) (d : Fin 64) :
    k0_pay3 v2 v4 v6 v9 (ix3 u r d) = attendRow (rowScores v2 v4 v9 r) (fun c d => v6 (ix3 (0 : Fin 1) c d)) d := by
  show shapeCast S1x512x64 (matmul dot_S512x2048_S2048x64_S512x64_1_0_0_1_n_n (some .fp32) (k0_pay1 v2 v4 v9)
      (shapeCast S2048x64 v6 shapeCasts_S1x2048x64_S2048x64 : FVec Ideal S2048x64 .f32) (constant S512x64 .f32 0x00000000#32)) shapeCasts_S512x64_S1x512x64 (ix3 u r d) = _
  rw [shapeCast_ab_1ab_apply, pv_apply]
  refine Finset.sum_congr rfl fun c _ => ?_
  rw [pay1_eq, tileWeights_apply, shapeCast_1ab_ab_apply]
  exact congrArg (fun s => weightRow s c * v6 (ix3 (0 : Fin 1) c d)) (funext fun c' => tileScores_apply v2 v4 v9 r c')

end Cert.KernelIdeal.Body

end
-- ==== Proof.KernelArrays.lean ====
/-
  From tiles to arrays. Grid point `t` of the 64 × 4 grid works on flattened head `t / 4` and on the query rows
  `512 · (t % 4) … 512 · (t % 4) + 511`: its query block and both output blocks sit there, its key and value blocks are
  the whole head, and the mask is resident whole, the body reading the 512 matching rows of it. So what the point
  writes back is the block of one whole-array function — the flattened specification of the arrays the region finds —
  and the 256 blocks tile each output array.
-/
import proofs.«125289_j34978213658631_2_alg».proof.Proof.Gen.KernelIdeal.Frame
import proofs.«125289_j34978213658631_2_alg».proof.Proof.KernelPieces
import proofs.«125289_j34978213658631_2_alg».proof.Proof.KernelBody
import proofs.«125289_j34978213658631_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Found Cert.KernelIdeal.Body Idealize.ShloMosaic.ValueIdx
open Cert.Attention

variable (m : (ℓ : Loc nD τ sig) → Buf (Elt Ideal) ℓ) (ρ : Dev nD → PrngReg)

/-! ## Where each window's block sits at a grid point -/

/-- The printed index maps in closed form, decided over the 256 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0
    ∧ (grid0.coords t (1 : Fin 2)).val = t.val % 4 :=
  (by decide +kernel : ∀ t : Fin grid0.N, _)

/-- The flattened head a grid point works on. -/
def headOf (t : Fin cfg0.N) : Fin 64 := ⟨t.val / 4, by have := t.isLt; have hN : cfg0.N = 256 := N_0; omega⟩

/-- The query row of the head that row `r` of the point's tile is. -/
def rowOf (t : Fin cfg0.N) (r : Fin 512) : Fin 2048 := ⟨t.val % 4 * 512 + r.val, by have := r.isLt; omega⟩

/-! ## The input blocks, read where the point sits -/

theorem read_q (c : Dev nD) (t : Fin cfg0.N) (r : Fin 512) (d : Fin 64) :
    iblk m c 0 t (ix3 (0 : Fin 1) r d) = V m c main_v0 (ix3 (headOf t) (rowOf t r) d) := by
  obtain ⟨e0, e1, e2, -⟩ := idx_facts t
  show V m c main_v0 (((cfg0.win 0).blk t).view.emb (ix3 (0 : Fin 1) r d)) = _
  refine congrArg (V m c main_v0) (funext fun a => Fin.ext ?_)
  match a with
  | ⟨0, _⟩ => show win0_0.index t (0 : Fin 3) * 1 + 1 * 0 = t.val / 4; rw [e0]; omega
  | ⟨1, _⟩ => show win0_0.index t (1 : Fin 3) * 512 + 1 * r.val = t.val % 4 * 512 + r.val; rw [e1, Nat.one_mul]
  | ⟨2, _⟩ => show win0_0.index t (2 : Fin 3) * 64 + 1 * d.val = d.val; rw [e2]; omega

theorem read_k (c : Dev nD) (t : Fin cfg0.N) (p : Fin 2048) (d : Fin 64) :
    iblk m c 1 t (ix3 (0 : Fin 1) p d) = V m c main_v1 (ix3 (headOf t) p d) := by
  obtain ⟨-, -, -, e0, e1, e2, -⟩ := idx_facts t
  show V m c main_v1 (((cfg0.win 1).blk t).view.emb (ix3 (0 : Fin 1) p d)) = _
  refine congrArg (V m c main_v1) (funext fun a => Fin.ext ?_)
  match a with
  | ⟨0, _⟩ => show win0_1.index t (0 : Fin 3) * 1 + 1 * 0 = t.val / 4; rw [e0]; omega
  | ⟨1, _⟩ => show win0_1.index t (1 : Fin 3) * 2048 + 1 * p.val = p.val; rw [e1]; omega
  | ⟨2, _⟩ => show win0_1.index t (2 : Fin 3) * 64 + 1 * d.val = d.val; rw [e2]; omega

theorem read_v (c : Dev nD) (t : Fin cfg0.N) (p : Fin 2048) (d : Fin 64) :
    iblk m c 2 t (ix3 (0 : Fin 1) p d) = V m c main_v2 (ix3 (headOf t) p d) := by
  obtain ⟨-, -, -, -, -, -, e0, e1, e2, -⟩ := idx_facts t
  show V m c main_v2 (((cfg0.win 2).blk t).view.emb (ix3 (0 : Fin 1) p d)) = _
  refine congrArg (V m c main_v2) (funext fun a => Fin.ext ?_)
  match a with
  | ⟨0, _⟩ => show win0_2.index t (0 : Fin 3) * 1 + 1 * 0 = t.val / 4; rw [e0]; omega
  | ⟨1, _⟩ => show win0_2.index t (1 : Fin 3) * 2048 + 1 * p.val = p.val; rw [e1]; omega
  | ⟨2, _⟩ => show win0_2.index t (2 : Fin 3) * 64 + 1 * d.val = d.val; rw [e2]; omega

/-- The rows of the resident mask the body reads at point `t` are rows `512 · (t % 4) …` of the mask. -/
theorem read_mask (c : Dev nD) (t : Fin cfg0.N) (r : Fin 512) (p : Fin 2048) :
    maskTile (grid0.coords t) (iblk m c 3 t) (ix2 r p) = V m c main_v3 (ix2 (rowOf t r) p) := by
  obtain ⟨-, -, -, -, -, -, -, -, -, e0, e1, -, -, -, -, -, -, eg⟩ := idx_facts t
  have hoff0 : k0_off1 (grid0.coords t) 0 = 512 * (grid0.coords t (1 : Fin 2)).val := congrFun (k0_off1_eq (grid0.coords t)) 0
  have hoff1 : k0_off1 (grid0.coords t) 1 = 0 := congrFun (k0_off1_eq (grid0.coords t)) 1
  show V m c main_v3 (((cfg0.win 3).blk t).view.emb
    ((Rect.unit (s := S2048x2048) (k0_off1 (grid0.coords t)) S512x2048.size (Facts₀.k0_off1_inb (grid0.coords t))).idx (ix2 r p))) = _
  refine congrArg (V m c main_v3) (funext fun a => Fin.ext ?_)
  match a with
  | ⟨0, _⟩ =>
    show win0_3.index t (0 : Fin 2) * 2048 + 1 * (k0_off1 (grid0.coords t) 0 + 1 * r.val) = t.val % 4 * 512 + r.val
    rw [e0, hoff0, eg]; omega
  | ⟨1, _⟩ =>
    show win0_3.index t (1 : Fin 2) * 2048 + 1 * (k0_off1 (grid0.coords t) 1 + 1 * p.val) = p.val
    rw [e1, hoff1]; omega

/-- A tile whose loaded blocks read head `g`'s arrays, its row `r` at the head's row `s`, has that row's scores. -/
theorem scores_of_reads (x0 : Vec Ideal S1x512x64 .f32) (x1 : Vec Ideal S1x2048x64 .f32) (x9 : Vec Ideal S512x2048 .f32)
    (q3 k3 : S64x2048x64.Idx → EReal) (m2 : S2048x2048.Idx → EReal) (g : Fin 64) (s : Fin 2048) (r : Fin 512)
    (h0 : ∀ d : Fin 64, x0 (ix3 (0 : Fin 1) r d) = q3 (ix3 g s d))
    (h1 : ∀ (p : Fin 2048) (d : Fin 64), x1 (ix3 (0 : Fin 1) p d) = k3 (ix3 g p d))
    (h9 : ∀ p : Fin 2048, x9 (ix2 r p) = m2 (ix2 s p)) :
    rowScores x0 x1 x9 r = flatScores q3 k3 m2 g s :=
  scoreRow_congr h0 h1 h9

/-- Row `r` of the point's tile has the scores of row `rowOf t r` of head `headOf t`. -/
theorem tile_scores (c : Dev nD) (t : Fin cfg0.N) (r : Fin 512) :
    rowScores (iblk m c 0 t) (iblk m c 1 t) (maskTile (grid0.coords t) (iblk m c 3 t)) r
      = flatScores (V m c main_v0) (V m c main_v1) (V m c main_v3) (headOf t) (rowOf t r) :=
  scores_of_reads (iblk m c 0 t) (iblk m c 1 t) (maskTile (grid0.coords t) (iblk m c 3 t))
    (V m c main_v0) (V m c main_v1) (V m c main_v3) (headOf t) (rowOf t r) r
    (read_q m c t r) (read_k m c t) (read_mask m c t r)

/-! ## What a point leaves in the two output blocks -/

theorem outsAt_eq (c : Dev nD) (t : Fin cfg0.N) :
    outsAt0 m c t = (k0_pay3 (iblk m c 0 t) (iblk m c 1 t) (iblk m c 2 t) (maskTile (grid0.coords t) (iblk m c 3 t)),
      k0_pay2 (iblk m c 0 t) (iblk m c 1 t) (maskTile (grid0.coords t) (iblk m c 3 t))) := by
  unfold outsAt0
  exact congrArg₂ Prod.mk
    (values_piece (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t))
    (weights_piece (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t))

/-- The flattened weights of the arrays the region finds. -/
abbrev regionWeights (c : Dev nD) : S64x2048x2048.Idx → EReal :=
  flatWeights (V m c main_v0) (V m c main_v1) (V m c main_v3)

/-- The flattened attended values of the arrays the region finds. -/
abbrev regionAttended (c : Dev nD) : S64x2048x64.Idx → EReal :=
  flatAttended (V m c main_v0) (V m c main_v1) (V m c main_v2) (V m c main_v3)

/-- Point `t` writes back block `t` of the flattened weights. -/
theorem flushed_weights (c : Dev nD) (t : Fin cfg0.N) :
    (dats m 0 c).flushed 5 t = ((cfg0.win 5).blk t).view.read (Elt Ideal) (regionWeights m c) := by
  show (cfg0.win 5).cut (grid0.coords t) ((dats m 0 c).after 5 t) = _
  rw [after0_5, outsAt_eq]
  obtain ⟨-, -, -, -, -, -, -, -, -, -, -, -, -, -, e0, e1, e2, -⟩ := idx_facts t
  funext j
  obtain ⟨u, r, p, rfl⟩ : ∃ (u : Fin 1) (r : Fin 512) (p : Fin 2048), j = ix3 u r p := ⟨j 0, j 1, j 2, eq_ix3 j⟩
  show k0_pay2 (iblk m c 0 t) (iblk m c 1 t) (maskTile (grid0.coords t) (iblk m c 3 t)) (ix3 u r p)
    = regionWeights m c (((cfg0.win 5).blk t).view.emb (ix3 u r p))
  have hemb : ((cfg0.win 5).blk t).view.emb (ix3 u r p) = ix3 (headOf t) (rowOf t r) p := by
    funext a; apply Fin.ext
    match a with
    | ⟨0, _⟩ => show win0_5.index t (0 : Fin 3) * 1 + 1 * u.val = t.val / 4; rw [e0]; omega
    | ⟨1, _⟩ => show win0_5.index t (1 : Fin 3) * 512 + 1 * r.val = t.val % 4 * 512 + r.val; rw [e1, Nat.one_mul]
    | ⟨2, _⟩ => show win0_5.index t (2 : Fin 3) * 2048 + 1 * p.val = p.val; rw [e2]; omega
  rw [hemb]
  refine (weights_payload _ _ _ u r p).trans ?_
  show weightRow _ p = weightRow (flatScores (V m c main_v0) (V m c main_v1) (V m c main_v3) (headOf t) (rowOf t r)) p
  rw [tile_scores]

/-- Point `t` writes back block `t` of the flattened attended values. -/
theorem flushed_attended (c : Dev nD) (t : Fin cfg0.N) :
    (dats m 0 c).flushed 4 t = ((cfg0.win 4).blk t).view.read (Elt Ideal) (regionAttended m c) := by
  show (cfg0.win 4).cut (grid0.coords t) ((dats m 0 c).after 4 t) = _
  rw [after0_4, outsAt_eq]
  obtain ⟨-, -, -, -, -, -, -, -, -, -, -, e0, e1, e2, -⟩ := idx_facts t
  funext j
  obtain ⟨u, r, d, rfl⟩ : ∃ (u : Fin 1) (r : Fin 512) (d : Fin 64), j = ix3 u r d := ⟨j 0, j 1, j 2, eq_ix3 j⟩
  show k0_pay3 (iblk m c 0 t) (iblk m c 1 t) (iblk m c 2 t) (maskTile (grid0.coords t) (iblk m c 3 t)) (ix3 u r d)
    = regionAttended m c (((cfg0.win 4).blk t).view.emb (ix3 u r d))
  have hemb : ((cfg0.win 4).blk t).view.emb (ix3 u r d) = ix3 (headOf t) (rowOf t r) d := by
    funext a; apply Fin.ext
    match a with
    | ⟨0, _⟩ => show win0_4.index t (0 : Fin 3) * 1 + 1 * u.val = t.val / 4; rw [e0]; omega
    | ⟨1, _⟩ => show win0_4.index t (1 : Fin 3) * 512 + 1 * r.val = t.val % 4 * 512 + r.val; rw [e1, Nat.one_mul]
    | ⟨2, _⟩ => show win0_4.index t (2 : Fin 3) * 64 + 1 * d.val = d.val; rw [e2]; omega
  rw [hemb]
  refine (values_payload _ _ _ _ u r d).trans ?_
  show attendRow _ _ d = attendRow (flatScores (V m c main_v0) (V m c main_v1) (V m c main_v3) (headOf t) (rowOf t r))
    (fun p d => V m c main_v2 (ix3 (headOf t) p d)) d
  rw [tile_scores, show (fun (p : Fin 2048) (d : Fin 64) => iblk m c 2 t (ix3 (0 : Fin 1) p d))
    = fun p d => V m c main_v2 (ix3 (headOf t) p d) from funext fun p => funext (read_v m c t p)]

/-! ## The blocks tile the arrays -/

theorem mem_blk_weights (t : Fin cfg0.N) (i : S64x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v4_1).slice (win0_5.rect t)).set ↔ _
  rw [View.set_slice_whole, Rect.mem_set_unit]
  exact Iff.rfl

theorem mem_blk_attended (t : Fin cfg0.N) (i : S64x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v4_0).slice (win0_4.rect t)).set ↔ _
  rw [View.set_slice_whole, Rect.mem_set_unit]
  exact Iff.rfl

/-- Head `g`, row `s` lies in the block of point `4 g + s / 512`. -/
theorem cover_weights (i : S64x2048x2048.Idx) :
    ∃ t : Fin cfg0.N, (cfg0.win 5).flush t = true ∧ i ∈ ((cfg0.win 5).blk t).view.set := by
  have h0 : (i 0).val < 64 := (i 0).isLt
  have h1 : (i 1).val < 2048 := (i 1).isLt
  have h2 : (i 2).val < 2048 := (i 2).isLt
  have hN : cfg0.N = 256 := N_0
  obtain ⟨t, ht⟩ : ∃ t : Fin cfg0.N, t.val = (i 0).val * 4 + (i 1).val / 512 := ⟨⟨(i 0).val * 4 + (i 1).val / 512, by omega⟩, rfl⟩
  obtain ⟨-, -, -, -, -, -, -, -, -, -, -, -, -, -, e0, e1, e2, -⟩ := idx_facts t
  refine ⟨t, flush0_5 t, ?_⟩
  rw [mem_blk_weights]
  intro a
  match a with
  | ⟨0, _⟩ =>
    show win0_5.index t (0 : Fin 3) * 1 ≤ (i 0).val ∧ (i 0).val < win0_5.index t (0 : Fin 3) * 1 + 1
    rw [e0]; omega
  | ⟨1, _⟩ =>
    show win0_5.index t (1 : Fin 3) * 512 ≤ (i 1).val ∧ (i 1).val < win0_5.index t (1 : Fin 3) * 512 + 512
    rw [e1]; omega
  | ⟨2, _⟩ =>
    show win0_5.index t (2 : Fin 3) * 2048 ≤ (i 2).val ∧ (i 2).val < win0_5.index t (2 : Fin 3) * 2048 + 2048
    rw [e2]; omega

theorem cover_attended (i : S64x2048x64.Idx) :
    ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 64 := (i 2).isLt
  have hN : cfg0.N = 256 := N_0
  obtain ⟨t, ht⟩ : ∃ t : Fin cfg0.N, t.val = (i 0).val * 4 + (i 1).val / 512 := ⟨⟨(i 0).val * 4 + (i 1).val / 512, by omega⟩, rfl⟩
  obtain ⟨-, -, -, -, -, -, -, -, -, -, -, e0, e1, e2, -⟩ := idx_facts t
  refine ⟨t, flush0_4 t, ?_⟩
  rw [mem_blk_attended]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 512 ≤ (i 1).val ∧ (i 1).val < win0_4.index t (1 : Fin 3) * 512 + 512
    rw [e1]; omega
  | ⟨2, _⟩ =>
    show win0_4.index t (2 : Fin 3) * 64 ≤ (i 2).val ∧ (i 2).val < win0_4.index t (2 : Fin 3) * 64 + 64
    rw [e2]; omega

/-! ## The two output arrays after the region -/

theorem final_weights (c : Dev nD) : (dats m 0 c).arrAt 5 cfg0.N = regionWeights m c :=
  (dats m 0 c).arrAt_eq_of_cover 5 (regionWeights m c) (fun t _ => flushed_weights m c t) (cover_weights)

theorem final_attended (c : Dev nD) : (dats m 0 c).arrAt 4 cfg0.N = regionAttended m c :=
  (dats m 0 c).arrAt_eq_of_cover 4 (regionAttended m c) (fun t _ => flushed_attended m c t) (cover_attended)

end Cert.KernelIdeal.Arrays

end
-- ==== Proof.LibHeadReshape.lean ====
/-
  Two leading axes flattened into one, and back.

  A row-major array of shape [a, b, c, d] reshaped to [n, c, d] with n = a · b keeps every trailing coordinate and
  sends the leading pair (p, q) to the single coordinate p · b + q; the reshape back reads the same position. A
  [1, 1, a, b] array reshaped to [a, b] drops its two unit axes. Each is read at an index given by its coordinates,
  in any element type.
-/
import Idealize.ShloMosaic.Lib.Pipeline.Value
import Idealize.ShloMosaic.Lib.ValueIdx

namespace Idealize.ShloMosaic.HeadReshape

open Idealize.ShloMosaic Idealize.ShloMosaic.ValueIdx

variable {α : Type}

/-- `[a, b, c, d]` cast to `[n, c, d]` reads, at `(g, i, j)` with `g = p · b + q`, the operand at `(p, q, i, j)`. -/
theorem shapeCast_abcd_ncd_apply {a b n c d : ℕ} (x : (⟨4, ![a, b, c, d]⟩ : Shape).Idx → α)
    (h : (⟨4, ![a, b, c, d]⟩ : Shape).ShapeCasts ⟨3, ![n, c, d]⟩) (p : Fin a) (q : Fin b) (g : Fin n)
    (hg : g.val = p.val * b + q.val) (i : Fin c) (j : Fin d) :
    shapeCast ⟨3, ![n, c, d]⟩ x h (ix3 g i j) = x (ix4 p q i j) :=
  shapeCast_apply x h _ _ (by
    rw [Shape.rowMajor_val_four, Shape.rowMajor_val_three]
    show ((p.val * b + q.val) * c + i.val) * d + j.val = (g.val * c + i.val) * d + j.val
    rw [hg])

/-- `[n, c, d]` cast to `[a, b, c, d]` reads, at `(p, q, i, j)`, the operand at `(g, i, j)` with `g = p · b + q`. -/
theorem shapeCast_ncd_abcd_apply {a b n c d : ℕ} (x : (⟨3, ![n, c, d]⟩ : Shape).Idx → α)
    (h : (⟨3, ![n, c, d]⟩ : Shape).ShapeCasts ⟨4, ![a, b, c, d]⟩) (p : Fin a) (q : Fin b) (g : Fin n)
    (hg : g.val = p.val * b + q.val) (i : Fin c) (j : Fin d) :
    shapeCast ⟨4, ![a, b, c, d]⟩ x h (ix4 p q i j) = x (ix3 g i j) :=
  shapeCast_apply x h _ _ (by
    rw [Shape.rowMajor_val_four, Shape.rowMajor_val_three]
    show (g.val * c + i.val) * d + j.val = ((p.val * b + q.val) * c + i.val) * d + j.val
    rw [hg])

/-- `[1, 1, a, b]` cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Idealize.ShloMosaic.HeadReshape
-- ==== Proof.KernelWhole.lean ====
/-
  The whole program around the region. Before the region the three [4, 16, 2048, 64] arguments are reshaped to
  [64, 2048, 64] — head (b, h) becomes row-major position 16 b + h — and the mask to [2048, 2048]; after it the two
  results are reshaped back. So the program's results are the specification's attended values and attention weights
  of its arguments, head by head.
-/
import proofs.«125289_j34978213658631_2_alg».proof.Proof.Gen.KernelIdeal.Frame
import proofs.«125289_j34978213658631_2_alg».proof.Proof.KernelArrays
import proofs.«125289_j34978213658631_2_alg».proof.Proof.LibHeadReshape
import proofs.«125289_j34978213658631_2_alg».proof.Proof.Spec
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Arrays Idealize.ShloMosaic.ValueIdx Idealize.ShloMosaic.HeadReshape
open Idealize.ShloMosaic.StableHlo
open Cert.Attention

variable (m : (ℓ : Loc nD τ sig) → Buf (Elt Ideal) ℓ) (ρ : Dev nD → PrngReg)

/-! ## The arrays the region finds: the reshaped arguments -/

theorem V_q (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl

theorem V_k (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  rfl

theorem V_v (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results
  rfl

theorem V_mask (c : Dev nD) : (V m c main_v3 : S2048x2048.Idx → EReal)
    = shapeCast S2048x2048 (m ((c : Thread nD τ).loc main_arg3)) shapeCasts_S1x1x2048x2048_S2048x2048 := by
  show StableHlo.after hostOps0 (fun b => m (c, b)) (Proc.devRef .tc main_v3) = _
  after_results
  rfl

/-- Head (`b`, `h`) in the flattened arrays. -/
def flat (b : Fin 4) (h : Fin 16) : Fin 64 := ⟨b.val * 16 + h.val, by omega⟩

/-- The flattened arrays hold head (`b`, `h`) at `16 b + h`, so its scores there are the head's. -/
theorem region_scores (c : Dev nD) (b : Fin 4) (h : Fin 16) (r : Fin 2048) :
    flatScores (V m c main_v0) (V m c main_v1) (V m c main_v3) (flat b h) r = headScores (m ((c : Thread nD τ).loc main_arg0)) (m ((c : Thread nD τ).loc main_arg1)) (m ((c : Thread nD τ).loc main_arg3)) b h r :=
  flatScores_eq _ _ _ _ _ _ b h (flat b h)
    (fun s d => by rw [V_q]; exact shapeCast_abcd_ncd_apply _ _ b h (flat b h) rfl s d)
    (fun s d => by rw [V_k]; exact shapeCast_abcd_ncd_apply _ _ b h (flat b h) rfl s d)
    (fun r' p => by rw [V_mask]; exact shapeCast_11ab_ab_apply _ _ r' p)
    r

theorem region_values (c : Dev nD) (b : Fin 4) (h : Fin 16) (p : Fin 2048) (d : Fin 64) :
    V m c main_v2 (ix3 (flat b h) p d) = (m ((c : Thread nD τ).loc main_arg2)) (ix4 b h p d) := by
  rw [V_v]; exact shapeCast_abcd_ncd_apply _ _ b h (flat b h) rfl p d

/-! ## The results after the two reshapes back -/

/-- Whatever the buffers hold when the region ends, the second result is the reshape of the weights array. -/
theorem tail_weights_of (W : Valuation τ sig (Elt Ideal)) :
    StableHlo.after hostOps1 W (Proc.devRef .tc main_v6)
      = (shapeCast S4x16x2048x2048 (W (Proc.devRef .tc main_v4_1)) shapeCasts_S64x2048x2048_S4x16x2048x2048 : S4x16x2048x2048.Idx → EReal) := by
  after_results
  rfl

/-- And the first result is the reshape of the values array. -/
theorem tail_attended_of (W : Valuation τ sig (Elt Ideal)) :
    StableHlo.after hostOps1 W (Proc.devRef .tc main_v5)
      = (shapeCast S4x16x2048x64 (W (Proc.devRef .tc main_v4_0)) shapeCasts_S64x2048x64_S4x16x2048x64 : S4x16x2048x64.Idx → EReal) := by
  after_results
  rfl

theorem tail_weights (c : Dev nD) : Pipeline.afterTail₀ cfgs (dats m) 0 (V0 m) [hostOps1] c main_v6
    = shapeCast S4x16x2048x2048 ((dats m 0 c).arrAt 5 cfg0.N) shapeCasts_S64x2048x2048_S4x16x2048x2048 := by
  unfold Pipeline.afterTail₀
  refine (tail_weights_of _).trans ?_
  exact congrArg (fun X => shapeCast S4x16x2048x2048 X shapeCasts_S64x2048x2048_S4x16x2048x2048)
    (Pipeline.withArrays_arr spec0 launch0.win.arr_inj c _ _ 5)

theorem tail_attended (c : Dev nD) : Pipeline.afterTail₀ cfgs (dats m) 0 (V0 m) [hostOps1] c main_v5
    = shapeCast S4x16x2048x64 ((dats m 0 c).arrAt 4 cfg0.N) shapeCasts_S64x2048x64_S4x16x2048x64 := by
  unfold Pipeline.afterTail₀
  refine (tail_attended_of _).trans ?_
  exact congrArg (fun X => shapeCast S4x16x2048x64 X shapeCasts_S64x2048x64_S4x16x2048x64)
    (Pipeline.withArrays_arr spec0 launch0.win.arr_inj c _ _ 4)

/-- The second result is the attention weights of the arguments. -/
theorem result_weights (c : Dev nD) : Pipeline.afterTail₀ cfgs (dats m) 0 (V0 m) [hostOps1] c main_v6
    = weights (m ((c : Thread nD τ).loc main_arg0)) (m ((c : Thread nD τ).loc main_arg1)) (m ((c : Thread nD τ).loc main_arg3)) := by
  rw [tail_weights, final_weights]
  show (shapeCast S4x16x2048x2048 (regionWeights m c) shapeCasts_S64x2048x2048_S4x16x2048x2048 : S4x16x2048x2048.Idx → EReal) = _
  funext i
  obtain ⟨b, h, r, p, rfl⟩ : ∃ (b : Fin 4) (h : Fin 16) (r p : Fin 2048), i = ix4 b h r p := ⟨i 0, i 1, i 2, i 3, eq_ix4 i⟩
  refine (shapeCast_ncd_abcd_apply _ _ b h (flat b h) rfl r p).trans ?_
  show weightRow (flatScores (V m c main_v0) (V m c main_v1) (V m c main_v3) (flat b h) r) p
    = weightRow (headScores (m ((c : Thread nD τ).loc main_arg0)) (m ((c : Thread nD τ).loc main_arg1)) (m ((c : Thread nD τ).loc main_arg3)) b h r) p
  rw [region_scores]

/-- The first result is the attended values of the arguments. -/
theorem result_attended (c : Dev nD) : Pipeline.afterTail₀ cfgs (dats m) 0 (V0 m) [hostOps1] c main_v5
    = attended (m ((c : Thread nD τ).loc main_arg0)) (m ((c : Thread nD τ).loc main_arg1)) (m ((c : Thread nD τ).loc main_arg2)) (m ((c : Thread nD τ).loc main_arg3)) := by
  rw [tail_attended, final_attended]
  show (shapeCast S4x16x2048x64 (regionAttended m c) shapeCasts_S64x2048x64_S4x16x2048x64 : S4x16x2048x64.Idx → EReal) = _
  funext i
  obtain ⟨b, h, r, d, rfl⟩ : ∃ (b : Fin 4) (h : Fin 16) (r : Fin 2048) (d : Fin 64), i = ix4 b h r d := ⟨i 0, i 1, i 2, i 3, eq_ix4 i⟩
  refine (shapeCast_ncd_abcd_apply _ _ b h (flat b h) rfl r d).trans ?_
  show attendRow (flatScores (V m c main_v0) (V m c main_v1) (V m c main_v3) (flat b h) r)
      (fun p d => V m c main_v2 (ix3 (flat b h) p d)) d
    = attendRow (headScores (m ((c : Thread nD τ).loc main_arg0)) (m ((c : Thread nD τ).loc main_arg1)) (m ((c : Thread nD τ).loc main_arg3)) b h r) (fun p d => (m ((c : Thread nD τ).loc main_arg2)) (ix4 b h p d)) d
  rw [region_scores, show (fun (p : Fin 2048) (d : Fin 64) => V m c main_v2 (ix3 (flat b h) p d))
    = fun p d => (m ((c : Thread nD τ).loc main_arg2)) (ix4 b h p d) from funext fun p => funext (region_values m c b h p)]

/-! ## The run, read -/

/-- Every weakly fair execution ends with the two results at the specification of the arguments, the arguments unchanged. -/
theorem run : θ_run defs (onTc (τ := τ) (main (F := Ideal))) ⟨m, fun _ => 0, ρ⟩ fun r => ∀ c : Dev nD,
      r.2.mem ((c : Thread nD τ).loc main_v5) = attended (m ((c : Thread nD τ).loc main_arg0)) (m ((c : Thread nD τ).loc main_arg1)) (m ((c : Thread nD τ).loc main_arg2)) (m ((c : Thread nD τ).loc main_arg3))
      ∧ r.2.mem ((c : Thread nD τ).loc main_v6) = weights (m ((c : Thread nD τ).loc main_arg0)) (m ((c : Thread nD τ).loc main_arg1)) (m ((c : Thread nD τ).loc main_arg3))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3)) :=
  (θ_run defs _ _).mono (fun r h c =>
    ⟨((h c).2 main_v5 (Pipeline.mem_restRefs_of main_v5 (by decide) (by decide))).trans (result_attended m c),
      ((h c).2 main_v6 (Pipeline.mem_restRefs_of main_v6 (by decide) (by decide))).trans (result_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference program's two results are the attention weights and the attended values of the specification:
  its batched products contract the feature axis head by head, its softmax takes the row maximum (once more joined
  with −∞, which changes nothing), exponentiates the shifted scores and divides by their sum, and its scale
  1 / √64 is the number ⅛.
-/
import proofs.«125289_j34978213658631_2_alg».proof.Proof.Gen.ReferenceIdeal.Read
import proofs.«125289_j34978213658631_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Attention

variable (q k v : (⟨S4x16x2048x64, .f32⟩ : BufTy).Contents (Elt Ideal)) (msk : (⟨S1x1x2048x2048, .f32⟩ : BufTy).Contents (Elt Ideal))

/-! ## The index maps of the reference's operations, at an index given by its coordinates -/

theorem lidx_scores (b : Fin 4) (h : Fin 16) (r c : Fin 2048) (d : Fin 64) : lidx_main_v2 (ix4 b h r c) d = ix4 b h r d :=
  funext fun a => by match a with | ⟨0, _⟩ => rfl | ⟨1, _⟩ => rfl | ⟨2, _⟩ => rfl | ⟨3, _⟩ => rfl
theorem ridx_scores (b : Fin 4) (h : Fin 16) (r c : Fin 2048) (d : Fin 64) : ridx_main_v2 (ix4 b h r c) d = ix4 b h c d :=
  funext fun a => by match a with | ⟨0, _⟩ => rfl | ⟨1, _⟩ => rfl | ⟨2, _⟩ => rfl | ⟨3, _⟩ => rfl
theorem idx_mask (b : Fin 4) (h : Fin 16) (r c : Fin 2048) : idx_main_v5 (ix4 b h r c) = ix4 (0 : Fin 1) (0 : Fin 1) r c :=
  funext fun a => by match a with | ⟨0, _⟩ => rfl | ⟨1, _⟩ => rfl | ⟨2, _⟩ => rfl | ⟨3, _⟩ => rfl
theorem idx_rowOf (b : Fin 4) (h : Fin 16) (r c : Fin 2048) : idx_main_v10 (idx_main_v11 (ix4 b h r c)) = ix3 b h r :=
  funext fun a => by match a with | ⟨0, _⟩ => rfl | ⟨1, _⟩ => rfl | ⟨2, _⟩ => rfl
theorem idx_rowOf' (b : Fin 4) (h : Fin 16) (r c : Fin 2048) : idx_main_v15 (idx_main_v16 (ix4 b h r c)) = ix3 b h r :=
  funext fun a => by match a with | ⟨0, _⟩ => rfl | ⟨1, _⟩ => rfl | ⟨2, _⟩ => rfl
theorem idx_rowSum (b : Fin 4) (h : Fin 16) (r c : Fin 2048) : idx_main_v14 (ix3 b h r) c = ix4 b h r c :=
  funext fun a => by match a with | ⟨0, _⟩ => rfl | ⟨1, _⟩ => rfl | ⟨2, _⟩ => rfl | ⟨3, _⟩ => rfl
theorem lidx_attend (b : Fin 4) (h : Fin 16) (r : Fin 2048) (d : Fin 64) (c : Fin 2048) : lidx_main_v18 (ix4 b h r d) c = ix4 b h r c :=
  funext fun a => by match a with | ⟨0, _⟩ => rfl | ⟨1, _⟩ => rfl | ⟨2, _⟩ => rfl | ⟨3, _⟩ => rfl
theorem ridx_attend (b : Fin 4) (h : Fin 16) (r : Fin 2048) (d : Fin 64) (c : Fin 2048) : ridx_main_v18 (ix4 b h r d) c = ix4 b h c d :=
  funext fun a => by match a with | ⟨0, _⟩ => rfl | ⟨1, _⟩ => rfl | ⟨2, _⟩ => rfl | ⟨3, _⟩ => rfl

/-- A row index with the position put back on the reduced axis. -/
theorem lift_row (hr : S4x16x2048x2048.Reduces [3] S4x16x2048) (b : Fin 4) (h : Fin 16) (r : Fin 2048)
    (c : Fin (S4x16x2048x2048.size 3)) : hr.lift (ix3 b h r) c = ix4 b h r (⟨c.val, c.isLt⟩ : Fin 2048) := by
  funext a; apply Fin.ext
  fin_cases a <;> rfl

/-! ## The stages, read at an index -/

/-- The scaled and masked scores. -/
theorem score_eq (b : Fin 4) (h : Fin 16) (r c : Fin 2048) :
    val_main_v6 (F := Ideal) q k msk (ix4 b h r c) = headScores q k msk b h r c := by
  rw [val_main_v6_apply, val_main_v4_apply, val_main_v2_apply, val_main_v3_apply, val_main_v1_apply, val_main_v0_apply,
    val_main_cst_apply, val_main_cst_0_apply, val_main_v5_apply, idx_mask]
  simp only [lidx_scores, ridx_scores, Ideal.addf_def, Ideal.mulf_def, Ideal.hostDivf_def, Ideal.hostUnary_sqrt_def,
    Ideal.ofBits_def, one_div_sqrt_64]
  rfl

/-- The row maximum. -/
theorem rowMax_eq (b : Fin 4) (h : Fin 16) (r : Fin 2048) :
    val_main_v9 (F := Ideal) q k msk (ix3 b h r) = rowMax (headScores q k msk b h r) := by
  have hr : S4x16x2048x2048.Reduces [3] S4x16x2048 := by decide
  rw [val_main_v9_apply, val_main_v8_apply, val_main_cst_2_apply]
  unfold val_main_v7
  rw [Host.reduce_eq_fold_single FloatOps.maximumf _ _ reducesTo_S4x16x2048x2048_S4x16x2048_d3 hr h_S_]
  have hf : (val_main_v6 (F := Ideal) q k msk ∘ hr.lift (ix3 b h r)) = fun c : Fin 2048 => headScores q k msk b h r c :=
    funext fun c => by
      show val_main_v6 (F := Ideal) q k msk (hr.lift (ix3 b h r) c) = _
      rw [lift_row, score_eq]
      rfl
  show max (Ideal.ofBits .f32 0xFF800000#32) _ = _
  rw [max_negInf_left]
  exact congrArg (fun f => Finset.fold max (Ideal.ofBits .f32 0xFF800000#32) f (Finset.univ : Finset (Fin 2048))) hf

/-- The exponentials of the shifted scores. -/
theorem exp_eq (b : Fin 4) (h : Fin 16) (r c : Fin 2048) :
    val_main_v13 (F := Ideal) q k msk (ix4 b h r c) = expRow (headScores q k msk b h r) c := by
  rw [val_main_v13_apply, val_main_v12_apply, val_main_v11_apply, val_main_v10_apply, idx_rowOf, rowMax_eq, score_eq]
  rfl

/-- Their sum along the row. -/
theorem rowSum_eq (b : Fin 4) (h : Fin 16) (r : Fin 2048) :
    val_main_v14 (F := Ideal) q k msk (ix3 b h r) = ∑ c : Fin 2048, expRow (headScores q k msk b h r) c := by
  rw [val_main_v14_apply, val_main_cst_3_apply]
  simp only [Ideal.ofBits_def, Ideal.ofBits_zero_f32, zero_add, idx_rowSum, exp_eq]

/-- The first result: the attention weights. -/
theorem weights_eq : val_main_v17 (F := Ideal) q k msk = weights q k msk := by
  funext i
  obtain ⟨b, h, r, c, rfl⟩ : ∃ (b : Fin 4) (h : Fin 16) (r c : Fin 2048), i = ix4 b h r c := ⟨i 0, i 1, i 2, i 3, eq_ix4 i⟩
  rw [val_main_v17_apply, val_main_v16_apply, val_main_v15_apply, idx_rowOf', rowSum_eq, exp_eq]
  rfl

/-- The second result: the attended values. -/
theorem attended_eq : val_main_v18 (F := Ideal) q k v msk = attended q k v msk := by
  funext i
  obtain ⟨b, h, r, d, rfl⟩ : ∃ (b : Fin 4) (h : Fin 16) (r : Fin 2048) (d : Fin 64), i = ix4 b h r d := ⟨i 0, i 1, i 2, i 3, eq_ix4 i⟩
  rw [val_main_v18_apply, weights_eq]
  simp only [lidx_attend, ridx_attend]
  rfl

end Cert.ReferenceIdeal.RefValue

end
-- ==== Proof.lean ====
/-
  Scaled dot-product attention with an additive mask: a tiled kernel against the plain formula.

  Both programs take q, k, v of shape [4, 16, 2048, 64] and a mask of shape [1, 1, 2048, 2048] and return the attended
  values [4, 16, 2048, 64] and the attention weights [4, 16, 2048, 2048]. Over the extended reals both compute, for
  every head and query row, score c = (∑ d, q d · k c d) · ⅛ + mask c, weight c = exp (score c − max score) /
  ∑ exp (score − max score) and out d = ∑ c, weight c · v c d (Proof/Spec.lean):
    · the reference through batched products and a softmax along the last axis, its scale spelt 1 / √64, which is
      the number ⅛ (Proof/RefValue.lean);
    · the kernel on the heads flattened to one axis of 64, 512 query rows per grid point against the head's whole keys
      and values and the matching rows of the mask held resident, its scale the literal 0.125 (Proof/KernelBody.lean:
      one tile; Proof/KernelPieces.lean: what a point leaves in its two output blocks; Proof/KernelArrays.lean: the
      256 blocks tile the two arrays; Proof/KernelWhole.lean: the reshapes around the region).
  No law of the extended reals beyond the commutativity and associativity built into finite sums and into the fold of
  `max` is used, so the precondition is never opened. The three frames are the generated ones (the reference's from its
  generated run); the idealization rewrote nothing.
-/
import proofs.«125289_j34978213658631_2_alg».proof.Defs
import proofs.«125289_j34978213658631_2_alg».proof.Proof.Gen.Kernel
import proofs.«125289_j34978213658631_2_alg».proof.Proof.Gen.Kernel.Skeleton
import proofs.«125289_j34978213658631_2_alg».proof.Proof.Gen.Kernel.Launch
import proofs.«125289_j34978213658631_2_alg».proof.Proof.Gen.Kernel.Points
import proofs.«125289_j34978213658631_2_alg».proof.Proof.Gen.Kernel.Frame
import proofs.«125289_j34978213658631_2_alg».proof.Proof.Gen.KernelIdeal
import proofs.«125289_j34978213658631_2_alg».proof.Proof.Gen.KernelIdeal.Skeleton
import proofs.«125289_j34978213658631_2_alg».proof.Proof.Gen.KernelIdeal.Launch
import proofs.«125289_j34978213658631_2_alg».proof.Proof.Gen.KernelIdeal.Points
import proofs.«125289_j34978213658631_2_alg».proof.Proof.Gen.KernelIdeal.Frame
import proofs.«125289_j34978213658631_2_alg».proof.Proof.Gen.ReferenceIdeal
import proofs.«125289_j34978213658631_2_alg».proof.Proof.Gen.ReferenceIdeal.Run
import proofs.«125289_j34978213658631_2_alg».proof.Proof.Gen.ReferenceIdeal.Read
import proofs.«125289_j34978213658631_2_alg».proof.Proof.Gen.Pre_finite_inputs
import proofs.«125289_j34978213658631_2_alg».proof.Proof.KernelWhole
import proofs.«125289_j34978213658631_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments both programs end with the specification's attended values and attention
    weights of those arguments. -/
theorem algebraic : Cert.algebraic_KernelIdeal_ReferenceIdeal := by
  intro m ρ m' ρ' _ hagree
  refine ⟨fun c => Cert.Attention.attended (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Attention.weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.RefValue.attended_eq,
      (hagree c).1, (hagree c).2.1, (hagree c).2.2.1, (hagree c).2.2.2]
  · rw [Cert.ReferenceIdeal.Read.val_main_v17_eq, Cert.ReferenceIdeal.RefValue.weights_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
